-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x30 : Shape := ⟨2, ![4096, 30]⟩
abbrev S30x60 : Shape := ⟨2, ![30, 60]⟩
abbrev S60 : Shape := ⟨1, ![60]⟩
abbrev S60x5 : Shape := ⟨2, ![60, 5]⟩
abbrev S5 : Shape := ⟨1, ![5]⟩
abbrev S_ : Shape := ⟨0, ![]⟩

class Facts : Prop where
  bcast_S_S4096x30 : S_.BroadcastsInDim S4096x30 (![] : Fin 0 → Fin S4096x30.rank)
  reducesTo_S4096x30_S_d0_1 : S4096x30.ReducesTo [0, 1] S_
  h_S_ : 0 < S_.numel
  bcast_S_S30x60 : S_.BroadcastsInDim S30x60 (![] : Fin 0 → Fin S30x60.rank)
  reducesTo_S30x60_S_d0_1 : S30x60.ReducesTo [0, 1] S_
  bcast_S_S60 : S_.BroadcastsInDim S60 (![] : Fin 0 → Fin S60.rank)
  reducesTo_S60_S_d0 : S60.ReducesTo [0] S_
  bcast_S_S60x5 : S_.BroadcastsInDim S60x5 (![] : Fin 0 → Fin S60x5.rank)
  reducesTo_S60x5_S_d0_1 : S60x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S60x5 .f32) (main_arg5 : FVec F S5 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x5 .f32 := Host.absf main_arg4
  let main_cst_6 : FVec F S_ .f32 := constant S_ .f32 0x7F800000#32
  let main_v20 : FVec F S60x5 .f32 := broadcastInDim S60x5 ![] bcast_S_S60x5 main_cst_6
  let main_v21 : IVec S60x5 1 := cmpf .olt main_v19 main_v20
  let main_c_7 : IVec S_ 1 := constantI S_ 1 1#1
  let main_v22 : IVec S_ 1 := (fun x v => Host.reduce IntOp.andi x v reducesTo_S60x5_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S4096x30 .f32) (main_arg1 : FVec F S4096x30 .f32) (main_arg2 : FVec F S30x60 .f32) (main_arg3 : FVec F S60 .f32) (main_arg4 : FVec F S60x5 .f32) (main_arg5 : FVec F S5 .f32) : IVec S_ 1 :=
  let main_v0 : FVec F S4096x30 .f32 := Host.absf main_arg0
  let main_cst : FVec F S_ .f32 := constant S_ .f32 0x7F800000#32
  let main_v1 : FVec F S4096x30 .f32 := broadcastInDim S4096x30 ![] bcast_S_S4096x30 main_cst
  let main_v2 : IVec S4096x30 1 := cmpf .olt main_v0 main_v1
  let main_c : IVec S_ 1 := constantI S_ 1 1#1
  let main_v3 : IVec S_ 1 := (fun x v => Host.reduce IntOp.andi x v reducesTo_S4096x30_S_d0_1 h_S_) main_v2 main_c
  let main_v4 : FVec F S4096x30 .f32 := Host.absf main_arg1
  let main_cst_0 : FVec F S_ .f32 := constant S_ .f32 0x7F800000#32
  let main_v5 : FVec F S4096x30 .f32 := broadcastInDim S4096x30 ![] bcast_S_S4096x30 main_cst_0
  let main_v6 : IVec S4096x30 1 := cmpf .olt main_v4 main_v5
  let main_c_1 : IVec S_ 1 := constantI S_ 1 1#1
  let main_v7 : IVec S_ 1 := (fun x v => Host.reduce IntOp.andi x v reducesTo_S4096x30_S_d0_1 h_S_) main_v6 main_c_1
  let main_v8 : IVec S_ 1 := andi main_v3 main_v7
  let main_v9 : FVec F S30x60 .f32 := Host.absf main_arg2
  let main_cst_2 : FVec F S_ .f32 := constant S_ .f32 0x7F800000#32
  let main_v10 : FVec F S30x60 .f32 := broadcastInDim S30x60 ![] bcast_S_S30x60 main_cst_2
  let main_v11 : IVec S30x60 1 := cmpf .olt main_v9 main_v10
  let main_c_3 : IVec S_ 1 := constantI S_ 1 1#1
  let main_v12 : IVec S_ 1 := (fun x v => Host.reduce IntOp.andi x v reducesTo_S30x60_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_v13 main_v16
-- ==== Kernel.lean ====
abbrev S4096x30 : Shape := ⟨2, ![4096, 30]⟩
abbrev S30x60 : Shape := ⟨2, ![30, 60]⟩
abbrev S60 : Shape := ⟨1, ![60]⟩
abbrev S60x5 : Shape := ⟨2, ![60, 5]⟩
abbrev S5 : Shape := ⟨1, ![5]⟩
abbrev S1x60 : Shape := ⟨2, ![1, 60]⟩
abbrev S1x5 : Shape := ⟨2, ![1, 5]⟩
abbrev S8192x30 : Shape := ⟨2, ![8192, 30]⟩
abbrev S8192x5 : Shape := ⟨2, ![8192, 5]⟩
abbrev S2048x30 : Shape := ⟨2, ![2048, 30]⟩
abbrev S2048x5 : Shape := ⟨2, ![2048, 5]⟩
abbrev S2048x60 : Shape := ⟨2, ![2048, 60]⟩
abbrev S4096x5 : Shape := ⟨2, ![4096, 5]⟩
abbrev S5x4096 : Shape := ⟨2, ![5, 4096]⟩
abbrev S4096x4096 : Shape := ⟨2, ![4096, 4096]⟩
abbrev S512x5 : Shape := ⟨2, ![512, 5]⟩
abbrev S512x4096 : Shape := ⟨2, ![512, 4096]⟩
abbrev S512x1 : Shape := ⟨2, ![512, 1]⟩
abbrev S1x4096 : Shape := ⟨2, ![1, 4096]⟩

abbrev nBuf : Space → Nat
  | .hbm => 14
  | .vmem => 13
  | .smem => 0
  | _ => 0

abbrev bufTy : (tb : Table) → Fin (tcTables nBuf tb) → BufTy
  | .hbm, ⟨0, _⟩ => ⟨S4096x30, .f32⟩
  | .hbm, ⟨1, _⟩ => ⟨S4096x30, .f32⟩
  | .hbm, ⟨2, _⟩ => ⟨S30x60, .f32⟩
  | .hbm, ⟨3, _⟩ => ⟨S60, .f32⟩
  | .hbm, ⟨4, _⟩ => ⟨S60x5, .f32⟩
  | .hbm, ⟨5, _⟩ => ⟨S5, .f32⟩
  | .hbm, ⟨6, _⟩ => ⟨S1x60, .f32⟩
  | .hbm, ⟨7, _⟩ => ⟨S1x5, .f32⟩
  | .hbm, ⟨8, _⟩ => ⟨S8192x30, .f32⟩
  | .hbm, ⟨9, _⟩ => ⟨S8192x5, .f32⟩
  | .hbm, ⟨10, _⟩ => ⟨S4096x5, .f32⟩
  | .hbm, ⟨11, _⟩ => ⟨S4096x5, .f32⟩
  | .hbm, ⟨12, _⟩ => ⟨S5x4096, .f32⟩
  | .hbm, ⟨13, _⟩ => ⟨S4096x4096, .f32⟩
  | .local _ .vmem, ⟨0, _⟩ => ⟨S2048x30, .f32⟩
  | .local _ .vmem, ⟨1, _⟩ => ⟨S2048x30, .f32⟩
  | .local _ .vmem, ⟨2, _⟩ => ⟨S30x60, .f32⟩
  | .local _ .vmem, ⟨3, _⟩ => ⟨S1x60, .f32⟩
  | .local _ .vmem, ⟨4, _⟩ => ⟨S60x5, .f32⟩
  | .local _ .vmem, ⟨5, _⟩ => ⟨S1x5, .f32⟩
  | .local _ .vmem, ⟨6, _⟩ => ⟨S2048x5, .f32⟩
  | .local _ .vmem, ⟨7, _⟩ => ⟨S2048x5, .f32⟩
  | .local _ .vmem, ⟨8, _⟩ => ⟨S512x5, .f32⟩
  | .local _ .vmem, ⟨9, _⟩ => ⟨S512x5, .f32⟩
  | .local _ .vmem, ⟨10, _⟩ => ⟨S5x4096, .f32⟩
  | .local _ .vmem, ⟨11, _⟩ => ⟨S512x4096, .f32⟩
  | .local _ .vmem, ⟨12, _⟩ => ⟨S512x4096, .f32⟩
  | _, _ => ⟨S4096x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S60_S1x60 : S60.ShapeCasts S1x60
  shapeCasts_S5_S1x5 : S5.ShapeCasts S1x5
  concatenates_S4096x30_S4096x30_S8192x30_d0 : Shape.Concatenates [S4096x30, S4096x30] S8192x30 0
  inb_S2048x30_S2048x30_0_0 : ∀ a, (![0, 0] : Fin 2 → Nat) a + S2048x30.size a ≤ S2048x30.size a
  h_S2048x30 : 0 < S2048x30.numel
  shapeCasts_S2048x30_S2048x30 : S2048x30.ShapeCasts S2048x30
  inb_S30x60_S30x60_0_0 : ∀ a, (![0, 0] : Fin 2 → Nat) a + S30x60.size a ≤ S30x60.size a
  h_S30x60 : 0 < S30x60.numel
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S2048x60 : S1x60.Broadcasts S2048x60
  inb_S60x5_S60x5_0_0 : ∀ a, (![0, 0] : Fin 2 → Nat) a + S60x5.size a ≤ S60x5.size a
  h_S60x5 : 0 < S60x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  slices_S8192x5_S4096x5_0_0 : S8192x5.Slices ![0, 0] S4096x5
  slices_S8192x5_S4096x5_4096_0 : S8192x5.Slices ![4096, 0] S4096x5
  transposes_S4096x5_S5x4096_1_0 : S4096x5.Transposes [1, 0] S5x4096
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S5x4096_S5x4096_0_0 : ∀ a, (![0, 0] : Fin 2 → Nat) a + S5x4096.size a ≤ S5x4096.size a
  h_S5x4096 : 0 < S5x4096.numel
  shapeCasts_S5x4096_S5x4096 : S5x4096.ShapeCasts S5x4096
  slices_S512x5_o0_0_S512x1 : S512x5.Slices ![0, 0] S512x1
  slices_S5x4096_o0_0_S1x4096 : S5x4096.Slices ![0, 0] S1x4096
  broadcasts_S512x1_S512x4096 : S512x1.Broadcasts S512x4096
  broadcasts_S1x4096_S512x4096 : S1x4096.Broadcasts S512x4096
  slices_S512x5_o0_1_S512x1 : S512x5.Slices ![0, 1] S512x1
  slices_S5x4096_o1_0_S1x4096 : S5x4096.Slices ![1, 0] S1x4096
  slices_S512x5_o0_2_S512x1 : S512x5.Slices ![0, 2] S512x1
  slices_S5x4096_o2_0_S1x4096 : S5x4096.Slices ![2, 0] S1x4096
  slices_S512x5_o0_3_S512x1 : S512x5.Slices ![0, 3] S512x1
  slices_S5x4096_o3_0_S1x4096 : S5x4096.Slices ![3, 0] S1x4096
  slices_S512x5_o0_4_S512x1 : S512x5.Slices ![0, 4] S512x1
  slices_S5x4096_o4_0_S1x4096 : S5x4096.Slices ![4, 0] S1x4096
  inb_S512x4096_S512x4096_0_0 : ∀ a, (![0, 0] : Fin 2 → Nat) a + S512x4096.size a ≤ S512x4096.size a
  h_S512x4096 : 0 < S512x4096.numel
  dot_S2048x30_S30x60_S2048x60_1_0_0_1_n_n_wf : DotDims.WF S2048x30 S30x60 S2048x60 [1] [0] [0] [1] [] []
  dot_S2048x60_S60x5_S2048x5_1_0_0_1_n_n_wf : DotDims.WF S2048x60 S60x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x30.size a ≤ S8192x30.size a
  hwx0_0 : ∀ i : grid0.Coords, EltTy.bits .f32 = 32 ∨ (Rect.block (s := S8192x30) S2048x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x60.size a ≤ S30x60.size a
  hwx0_1 : ∀ i : grid0.Coords, EltTy.bits .f32 = 32 ∨ (Rect.block (s := S30x60) S30x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x60.size a ≤ S1x60.size a
  hwx0_2 : ∀ i : grid0.Coords, EltTy.bits .f32 = 32 ∨ (Rect.block (s := S1x60) S1x60.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S60x5.size a ≤ S60x5.size a
  hwx0_3 : ∀ i : grid0.Coords, EltTy.bits .f32 = 32 ∨ (Rect.block (s := S60x5) S60x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x5.size a ≤ S8192x5.size a
  hwx0_5 : ∀ i : grid0.Coords, EltTy.bits .f32 = 32 ∨ (Rect.block (s := S8192x5) S2048x5.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5.size a ≤ S4096x5.size a
  hwx1_0 : ∀ i : grid1.Coords, EltTy.bits .f32 = 32 ∨ (Rect.block (s := S4096x5) S512x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x4096.size a ≤ S5x4096.size a
  hwx1_1 : ∀ i : grid1.Coords, EltTy.bits .f32 = 32 ∨ (Rect.block (s := S5x4096) S5x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)

variable [Facts₀]

def dot_S2048x30_S30x60_S2048x60_1_0_0_1_n_n : DotDims S2048x30 S30x60 S2048x60 where
  lhsContracting := [1]
  rhsContracting := [0]
  lhsNonContracting := [0]
  rhsNonContracting := [1]
  lhsBatch := []
  rhsBatch := []
  wf := dot_S2048x30_S30x60_S2048x60_1_0_0_1_n_n_wf
def dot_S2048x60_S60x5_S2048x5_1_0_0_1_n_n : DotDims S2048x60 S60x5 S2048x5 where
  lhsContracting := [1]
  rhsContracting := [0]
  lhsNonContracting := [0]
  rhsNonContracting := [1]
  lhsBatch := []
  rhsBatch := []
  wf := dot_S2048x60_S60x5_S2048x5_1_0_0_1_n_n_wf

abbrev win0_0 : Pipeline.Window sig grid0 :=
  Pipeline.Window.ofSpec (Memref.whole main_v2) S2048x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S30x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x60.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S60x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x5.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S512x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x30 : Shape := ⟨2, ![4096, 30]⟩
abbrev S30x60 : Shape := ⟨2, ![30, 60]⟩
abbrev S60 : Shape := ⟨1, ![60]⟩
abbrev S60x5 : Shape := ⟨2, ![60, 5]⟩
abbrev S5 : Shape := ⟨1, ![5]⟩
abbrev S4096x60 : Shape := ⟨2, ![4096, 60]⟩
abbrev S1x60 : Shape := ⟨2, ![1, 60]⟩
abbrev S_ : Shape := ⟨0, ![]⟩
abbrev S4096x5 : Shape := ⟨2, ![4096, 5]⟩
abbrev S1x5 : Shape := ⟨2, ![1, 5]⟩
abbrev S4096x1x5 : Shape := ⟨3, ![4096, 1, 5]⟩
abbrev S1x4096x5 : Shape := ⟨3, ![1, 4096, 5]⟩
abbrev S4096x4096x5 : Shape := ⟨3, ![4096, 4096, 5]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x30, .f32⟩
  | .hbm, ⟨1, _⟩ => ⟨S4096x30, .f32⟩
  | .hbm, ⟨2, _⟩ => ⟨S30x60, .f32⟩
  | .hbm, ⟨3, _⟩ => ⟨S60, .f32⟩
  | .hbm, ⟨4, _⟩ => ⟨S60x5, .f32⟩
  | .hbm, ⟨5, _⟩ => ⟨S5, .f32⟩
  | .hbm, ⟨6, _⟩ => ⟨S4096x60, .f32⟩
  | .hbm, ⟨7, _⟩ => ⟨S1x60, .f32⟩
  | .hbm, ⟨8, _⟩ => ⟨S4096x60, .f32⟩
  | .hbm, ⟨9, _⟩ => ⟨S4096x60, .f32⟩
  | .hbm, ⟨10, _⟩ => ⟨S_, .f32⟩
  | .hbm, ⟨11, _⟩ => ⟨S4096x60, .f32⟩
  | .hbm, ⟨12, _⟩ => ⟨S4096x60, .f32⟩
  | .hbm, ⟨13, _⟩ => ⟨S4096x5, .f32⟩
  | .hbm, ⟨14, _⟩ => ⟨S1x5, .f32⟩
  | .hbm, ⟨15, _⟩ => ⟨S4096x5, .f32⟩
  | .hbm, ⟨16, _⟩ => ⟨S4096x5, .f32⟩
  | .hbm, ⟨17, _⟩ => ⟨S_, .f32⟩
  | .hbm, ⟨18, _⟩ => ⟨S4096x5, .f32⟩
  | .hbm, ⟨19, _⟩ => ⟨S4096x5, .f32⟩
  | .hbm, ⟨20, _⟩ => ⟨S4096x60, .f32⟩
  | .hbm, ⟨21, _⟩ => ⟨S1x60, .f32⟩
  | .hbm, ⟨22, _⟩ => ⟨S4096x60, .f32⟩
  | .hbm, ⟨23, _⟩ => ⟨S4096x60, .f32⟩
  | .hbm, ⟨24, _⟩ => ⟨S_, .f32⟩
  | .hbm, ⟨25, _⟩ => ⟨S4096x60, .f32⟩
  | .hbm, ⟨26, _⟩ => ⟨S4096x60, .f32⟩
  | .hbm, ⟨27, _⟩ => ⟨S4096x5, .f32⟩
  | .hbm, ⟨28, _⟩ => ⟨S1x5, .f32⟩
  | .hbm, ⟨29, _⟩ => ⟨S4096x5, .f32⟩
  | .hbm, ⟨30, _⟩ => ⟨S4096x5, .f32⟩
  | .hbm, ⟨31, _⟩ => ⟨S_, .f32⟩
  | .hbm, ⟨32, _⟩ => ⟨S4096x5, .f32⟩
  | .hbm, ⟨33, _⟩ => ⟨S4096x5, .f32⟩
  | .hbm, ⟨34, _⟩ => ⟨S4096x1x5, .f32⟩
  | .hbm, ⟨35, _⟩ => ⟨S1x4096x5, .f32⟩
  | .hbm, ⟨36, _⟩ => ⟨S4096x4096x5, .f32⟩
  | .hbm, ⟨37, _⟩ => ⟨S4096x4096x5, .f32⟩
  | .hbm, ⟨38, _⟩ => ⟨S4096x4096x5, .f32⟩
  | .hbm, ⟨39, _⟩ => ⟨S_, .f32⟩
  | .hbm, ⟨40, _⟩ => ⟨S4096x4096x5, .f32⟩
  | .hbm, ⟨41, _⟩ => ⟨S4096x4096x5, .f32⟩
  | .hbm, ⟨42, _⟩ => ⟨S_, .f32⟩
  | .hbm, ⟨43, _⟩ => ⟨S4096x4096, .f32⟩
  | .hbm, ⟨44, _⟩ => ⟨S4096x4096, .f32⟩
  | _, _ => ⟨S4096x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call2_cst : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call3_cst : Ref sig .tc := ⟨.hbm, 31, rfl⟩
abbrev main_call3_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call4_cst : Ref sig .tc := ⟨.hbm, 39, rfl⟩
abbrev main_call4_v0 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S60_S1x60_1 : S60.BroadcastsInDim S1x60 (![1] : Fin 1 → Fin S1x60.rank)
  bcast_S1x60_S4096x60_0_1 : S1x60.BroadcastsInDim S4096x60 (![0, 1] : Fin 2 → Fin S4096x60.rank)
  bcast_S_S4096x60 : S_.BroadcastsInDim S4096x60 (![] : Fin 0 → Fin S4096x60.rank)
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  bcast_S4096x5_S4096x1x5_0_2 : S4096x5.BroadcastsInDim S4096x1x5 (![0, 2] : Fin 2 → Fin S4096x1x5.rank)
  bcast_S4096x5_S1x4096x5_1_2 : S4096x5.BroadcastsInDim S1x4096x5 (![1, 2] : Fin 2 → Fin S1x4096x5.rank)
  bcast_S4096x1x5_S4096x4096x5_0_1_2 : S4096x1x5.BroadcastsInDim S4096x4096x5 (![0, 1, 2] : Fin 3 → Fin S4096x4096x5.rank)
  bcast_S1x4096x5_S4096x4096x5_0_1_2 : S1x4096x5.BroadcastsInDim S4096x4096x5 (![0, 1, 2] : Fin 3 → Fin S4096x4096x5.rank)
  bcast_S_S4096x4096x5 : S_.BroadcastsInDim S4096x4096x5 (![] : Fin 0 → Fin S4096x4096x5.rank)
  reducesTo_S4096x4096x5_S4096x4096_d2 : S4096x4096x5.ReducesTo [2] S4096x4096
  h_S_ : 0 < S_.numel
  dot_S4096x30_S30x60_S4096x60_1_0_0_1_n_n_wf : DotDims.WF S4096x30 S30x60 S4096x60 [1] [0] [0] [1] [] []
  dot_S4096x60_S60x5_S4096x5_1_0_0_1_n_n_wf : DotDims.WF S4096x60 S60x5 S4096x5 [1] [0] [0] [1] [] []

variable [Facts₀]

def dot_S4096x30_S30x60_S4096x60_1_0_0_1_n_n : DotDims S4096x30 S30x60 S4096x60 where
  lhsContracting := [1]
  rhsContracting := [0]
  lhsNonContracting := [0]
  rhsNonContracting := [1]
  lhsBatch := []
  rhsBatch := []
  wf := dot_S4096x30_S30x60_S4096x60_1_0_0_1_n_n_wf
def dot_S4096x60_S60x5_S4096x5_1_0_0_1_n_n : DotDims S4096x60 S60x5 S4096x5 where
  lhsContracting := [1]
  rhsContracting := [0]
  lhsNonContracting := [0]
  rhsNonContracting := [1]
  lhsBatch := []
  rhsBatch := []
  wf := dot_S4096x60_S60x5_S4096x5_1_0_0_1_n_n_wf

class Facts : Prop extends Facts₀ where

variable [Facts]
-- ==== Proof.KernelRun.lean ====
/-
  The kernel program's run, with its result named.

  The program is two stretches of host operations and two kernel launches.  The run is followed through its four
  segments from the launch memory; what every unscoped buffer holds when the last launch returns is a fold through
  the program (`W4`): each host stretch applies its operations, each launch leaves its input arrays as it found them
  and its result array at what its write-backs leave.  Reading the final state against that fold gives, beside the
  six argument arrays unchanged, the result array at `W4` of its own reference — the statement the value of the
  result is then computed from.
-/
import proofs.«137226_j17910013624325_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, with the result array at the
    last boundary's contents `W4` and the argument arrays as launched. -/
theorem run_named : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.Spec.lean ====
/-
  The mathematics of the claim, over the extended reals, with no program in sight.

  A row `x` of thirty numbers is embedded into five by a two-layer network with the positive-part nonlinearity:
  `hidden x h = max (Σ_d x d · W1 d h + b1 h) 0` for the sixty hidden units, then
  `embed x o = max (Σ_h hidden x h · W2 h o + b2 o) 0` for the five outputs.  The score of a query row against a
  corpus row is minus the sum, over the five outputs, of the positive part of the difference of their embeddings:
  `score q c = −Σ_k max (q k − c k) 0`.  The result array holds, at `(i, j)`, the score of query `i` against
  corpus row `j`.

  One program adds the five terms one after the other onto a zero and subtracts the total from zero; the other
  adds the sum onto a zero and negates.  On the extended reals addition is associative with unit `0` and
  `0 − a = −a` at every `a`, the infinities included, so both are `score`: no finiteness is needed.
-/
import Idealize.ShloMosaic.PureOps.Ideal
import Idealize.ShloMosaic.Lib.ValueIdx

noncomputable section

namespace Cert.SetScore

open Idealize.ShloMosaic Idealize.ShloMosaic.ValueIdx

/-- A hidden unit: the positive part of the row's inner product with the unit's weights, plus its bias. -/
def hidden (x : Fin 30 → EReal) (W1 : Fin 30 → Fin 60 → EReal) (b1 : Fin 60 → EReal) (h : Fin 60) : EReal :=
  max ((∑ d : Fin 30, x d * W1 d h) + b1 h) 0

/-- An output of the embedding: the positive part of the hidden layer's inner product with the output's weights,
    plus its bias. -/
def embed (x : Fin 30 → EReal) (W1 : Fin 30 → Fin 60 → EReal) (b1 : Fin 60 → EReal) (W2 : Fin 60 → Fin 5 → EReal)
    (b2 : Fin 5 → EReal) (o : Fin 5) : EReal :=
  max ((∑ h : Fin 60, hidden x W1 b1 h * W2 h o) + b2 o) 0

/-- The score of an embedded query against an embedded corpus row. -/
def score (q c : Fin 5 → EReal) : EReal := -(∑ k : Fin 5, max (q k - c k) 0)

/-- The five terms added one after the other onto a zero, the total taken from zero: the score. -/
theorem score_of_fold (q c : Fin 5 → EReal) :
    0 - (((((0 + max (q 0 - c 0) 0) + max (q 1 - c 1) 0) + max (q 2 - c 2) 0) + max (q 3 - c 3) 0) + max (q 4 - c 4) 0)
      = score q c := by
  unfold score
  rw [Fin.sum_univ_five, zero_sub, zero_add]

/-- The sum added onto a zero and negated: the score. -/
theorem score_of_sum (q c : Fin 5 → EReal) : -(0 + ∑ k : Fin 5, max (q k - c k) 0) = score q c := by
  unfold score
  rw [zero_add]

/-- The whole result: at `(i, j)` the score of query row `i` against corpus row `j`, both embedded by the same network. -/
def G (Q C : (⟨2, ![4096, 30]⟩ : Shape).Idx → EReal) (W1 : (⟨2, ![30, 60]⟩ : Shape).Idx → EReal)
    (b1 : (⟨1, ![60]⟩ : Shape).Idx → EReal) (W2 : (⟨2, ![60, 5]⟩ : Shape).Idx → EReal) (b2 : (⟨1, ![5]⟩ : Shape).Idx → EReal) :
    (⟨2, ![4096, 4096]⟩ : Shape).Idx → EReal := fun i =>
  score
    (embed (fun d => Q (ix2 (⟨(i 0).val, (i 0).isLt⟩ : Fin 4096) d)) (fun d h => W1 (ix2 d h)) (fun h => b1 (ix1 h))
      (fun h o => W2 (ix2 h o)) (fun o => b2 (ix1 o)))
    (embed (fun d => C (ix2 (⟨(i 1).val, (i 1).isLt⟩ : Fin 4096) d)) (fun d h => W1 (ix2 d h)) (fun h => b1 (ix1 h))
      (fun h o => W2 (ix2 h o)) (fun o => b2 (ix1 o)))

/-- `G` at an index whose coordinates are named. -/
theorem G_at (Q C : (⟨2, ![4096, 30]⟩ : Shape).Idx → EReal) (W1 : (⟨2, ![30, 60]⟩ : Shape).Idx → EReal)
    (b1 : (⟨1, ![60]⟩ : Shape).Idx → EReal) (W2 : (⟨2, ![60, 5]⟩ : Shape).Idx → EReal) (b2 : (⟨1, ![5]⟩ : Shape).Idx → EReal)
    (i : (⟨2, ![4096, 4096]⟩ : Shape).Idx) (p q : Fin 4096) (hp : (i 0).val = p.val) (hq : (i 1).val = q.val) :
    G Q C W1 b1 W2 b2 i
      = score
          (embed (fun d => Q (ix2 p d)) (fun d h => W1 (ix2 d h)) (fun h => b1 (ix1 h)) (fun h o => W2 (ix2 h o)) (fun o => b2 (ix1 o)))
          (embed (fun d => C (ix2 q d)) (fun d h => W1 (ix2 d h)) (fun h => b1 (ix1 h)) (fun h o => W2 (ix2 h o)) (fun o => b2 (ix1 o))) := by
  unfold G
  rw [show (⟨(i 0).val, (i 0).isLt⟩ : Fin 4096) = p from Fin.ext hp, show (⟨(i 1).val, (i 1).isLt⟩ : Fin 4096) = q from Fin.ext hq]

end Cert.SetScore

end
-- ==== Proof.EmbedPayload.lean ====
/-
  What the embedding body stores, read at one entry.

  The body multiplies its block of rows by the first weight matrix, adds the first bias row, takes the positive
  part, multiplies by the second weight matrix, adds the second bias row and takes the positive part again.  A
  matrix product into a zero accumulator is, at `(r, h)`, the sum over the contracted coordinate of the products of
  the two operands' entries; a bias row `[1, n]` repeated down the rows reads its one row.  So the entry at `(r, o)`
  is `embed` of row `r` of the block.
-/
import proofs.«137226_j17910013624325_2_alg».proof.Proof.Gen.KernelIdeal.Skeleton
import proofs.«137226_j17910013624325_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EmbedValue

open Idealize.ShloMosaic Idealize.ShloMosaic.ValueIdx Cert.KernelIdeal Cert.KernelIdeal.Gen Cert.SetScore

/-! ## The two matrix products at an entry -/

local notation "D₁" => dot_S2048x30_S30x60_S2048x60_1_0_0_1_n_n
local notation "D₂" => dot_S2048x60_S60x5_S2048x5_1_0_0_1_n_n

theorem lhs₁_row (i : S2048x60.Idx) (q : (D₁).contr.Idx) : ((D₁).lhsIdx i q 0).val = (i 0).val := by
  unfold DotDims.lhsIdx
  rw [dif_neg (show ¬(0 : Fin S2048x30.rank) ∈ (D₁).lhsBatch by decide),
    dif_pos (show (0 : Fin S2048x30.rank) ∈ (D₁).lhsNonContracting by decide)]
  rfl

theorem rhs₁_col (i : S2048x60.Idx) (q : (D₁).contr.Idx) : ((D₁).rhsIdx i q 1).val = (i 1).val := by
  unfold DotDims.rhsIdx
  rw [dif_neg (show ¬(1 : Fin S30x60.rank) ∈ (D₁).rhsBatch by decide),
    dif_pos (show (1 : Fin S30x60.rank) ∈ (D₁).rhsNonContracting by decide)]
  rfl

/-- The first product, into zero, at `(r, h)`: row `r` of the block against column `h` of the weights. -/
theorem matmul₁_apply (A : FVec Ideal S2048x30 .f32) (B : FVec Ideal S30x60 .f32) (r : Fin 2048) (h : Fin 60) :
    matmul (D₁) none A B (constant S2048x60 .f32 0x00000000#32) (ix2 r h) = ∑ d : Fin 30, A (ix2 r d) * B (ix2 d h) := by
  simp only [matmul]
  rw [Ideal.matmul_constant_zero_apply, ← Equiv.sum_comp (ValueIdx.contrEquiv1 (D₁) 30 rfl rfl).symm]
  refine Finset.sum_congr rfl fun k _ => ?_
  have hk := ValueIdx.contrEquiv1_symm_val (D₁) 30 rfl rfl k
  have el : (D₁).lhsIdx (ix2 r h) ((ValueIdx.contrEquiv1 (D₁) 30 rfl rfl).symm k) = ix2 r k := funext fun a => Fin.ext (by
    match a with
    | ⟨0, _⟩ => exact lhs₁_row _ _
    | ⟨1, _⟩ => exact ((D₁).lhsIdx_val_of_single rfl _ _).trans hk)
  have er : (D₁).rhsIdx (ix2 r h) ((ValueIdx.contrEquiv1 (D₁) 30 rfl rfl).symm k) = ix2 k h := funext fun a => Fin.ext (by
    match a with
    | ⟨0, _⟩ => exact ((D₁).rhsIdx_val_of_single rfl _ _).trans hk
    | ⟨1, _⟩ => exact rhs₁_col _ _)
  rw [el, er]

theorem lhs₂_row (i : S2048x5.Idx) (q : (D₂).contr.Idx) : ((D₂).lhsIdx i q 0).val = (i 0).val := by
  unfold DotDims.lhsIdx
  rw [dif_neg (show ¬(0 : Fin S2048x60.rank) ∈ (D₂).lhsBatch by decide),
    dif_pos (show (0 : Fin S2048x60.rank) ∈ (D₂).lhsNonContracting by decide)]
  rfl

theorem rhs₂_col (i : S2048x5.Idx) (q : (D₂).contr.Idx) : ((D₂).rhsIdx i q 1).val = (i 1).val := by
  unfold DotDims.rhsIdx
  rw [dif_neg (show ¬(1 : Fin S60x5.rank) ∈ (D₂).rhsBatch by decide),
    dif_pos (show (1 : Fin S60x5.rank) ∈ (D₂).rhsNonContracting by decide)]
  rfl

/-- The second product, into zero, at `(r, o)`: row `r` of the hidden layer against column `o` of the weights. -/
theorem matmul₂_apply (A : FVec Ideal S2048x60 .f32) (B : FVec Ideal S60x5 .f32) (r : Fin 2048) (o : Fin 5) :
    matmul (D₂) none A B (constant S2048x5 .f32 0x00000000#32) (ix2 r o) = ∑ h : Fin 60, A (ix2 r h) * B (ix2 h o) := by
  simp only [matmul]
  rw [Ideal.matmul_constant_zero_apply, ← Equiv.sum_comp (ValueIdx.contrEquiv1 (D₂) 60 rfl rfl).symm]
  refine Finset.sum_congr rfl fun k _ => ?_
  have hk := ValueIdx.contrEquiv1_symm_val (D₂) 60 rfl rfl k
  have el : (D₂).lhsIdx (ix2 r o) ((ValueIdx.contrEquiv1 (D₂) 60 rfl rfl).symm k) = ix2 r k := funext fun a => Fin.ext (by
    match a with
    | ⟨0, _⟩ => exact lhs₂_row _ _
    | ⟨1, _⟩ => exact ((D₂).lhsIdx_val_of_single rfl _ _).trans hk)
  have er : (D₂).rhsIdx (ix2 r o) ((ValueIdx.contrEquiv1 (D₂) 60 rfl rfl).symm k) = ix2 k o := funext fun a => Fin.ext (by
    match a with
    | ⟨0, _⟩ => exact ((D₂).rhsIdx_val_of_single rfl _ _).trans hk
    | ⟨1, _⟩ => exact rhs₂_col _ _)
  rw [el, er]

/-! ## The stored value at an entry -/

/-- The hidden layer the body computes, at `(r, h)`. -/
theorem hidden_apply (x0 : FVec Ideal S2048x30 .f32) (x1 : FVec Ideal S30x60 .f32) (x2 : FVec Ideal S1x60 .f32) (r : Fin 2048) (h : Fin 60) :
    maximumf (addf (matmul (D₁) none x0 x1 (constant S2048x60 .f32 0x00000000#32))
        (broadcastTo S2048x60 x2 broadcasts_S1x60_S2048x60))
      (broadcast S2048x60 (Scalar.ofBits (F := Ideal) .f32 0x00000000#32)) (ix2 r h)
      = hidden (fun d => x0 (ix2 r d)) (fun d h => x1 (ix2 d h)) (fun h => x2 (ix2 (0 : Fin 1) h)) h := by
  rw [maximumf_apply, addf_apply, matmul₁_apply, broadcastTo_1b_ab_apply, broadcast_apply]
  show max _ (Ideal.ofBits .f32 0x00000000#32) = _
  rw [Ideal.ofBits_zero_f32]
  rfl

/-- The entry the body stores at `(r, o)` is `embed` of row `r` of its block of rows, with the weights and the
    bias rows it loaded. -/
theorem stored_apply (x0 : Vec Ideal S2048x30 .f32) (x1 : Vec Ideal S30x60 .f32) (x2 : Vec Ideal S1x60 .f32)
    (x3 : Vec Ideal S60x5 .f32) (x4 : Vec Ideal S1x5 .f32) (r : Fin 2048) (o : Fin 5) :
    k0_pay1 (F := Ideal) x0 x1 x2 x3 x4 (ix2 r o)
      = embed (fun d => x0 (ix2 r d)) (fun d h => x1 (ix2 d h)) (fun h => x2 (ix2 (0 : Fin 1) h))
          (fun h o => x3 (ix2 h o)) (fun o => x4 (ix2 (0 : Fin 1) o)) o := by
  unfold k0_pay1
  simp only [shapeCast_self]
  rw [maximumf_apply, addf_apply, matmul₂_apply, broadcastTo_1b_ab_apply, broadcast_apply]
  show max _ (Ideal.ofBits .f32 0x00000000#32) = _
  rw [Ideal.ofBits_zero_f32]
  unfold embed
  refine congrArg (fun s => max (s + x4 (ix2 (0 : Fin 1) o)) 0) (Finset.sum_congr rfl fun h _ => ?_)
  rw [hidden_apply]

end Cert.KernelIdeal.EmbedValue

end
-- ==== Proof.EmbedRegion.lean ====
/-
  The first kernel launch, whole: what its result array holds afterwards, as one function of the arrays it finds.

  The launch walks four grid points.  At point `t` the body is given rows `2048·t … 2048·t + 2047` of the stacked
  inputs, the two weight matrices and the two bias rows whole, and writes back rows `2048·t … 2048·t + 2047` of the
  result.  What it writes at row `r` of its block is the embedding of row `2048·t + r` of the stacked inputs, so
  every write-back is its block of ONE array, `rows`: the embedding of every row.  The four blocks cover the result
  array (row `R` lies in block `R / 2048`), so the array ends at `rows`.
-/
import proofs.«137226_j17910013624325_2_alg».proof.Proof.Gen.KernelIdeal.Frame
import proofs.«137226_j17910013624325_2_alg».proof.Proof.EmbedPayload
import Idealize.ShloMosaic.Lib.Pipeline.Value

set_option maxRecDepth 16384

noncomputable section

namespace Cert.KernelIdeal.EmbedValue

open Idealize.ShloMosaic Idealize.ShloMosaic.TcCoe Idealize.SL.Sem Idealize.ShloMosaic.ValueIdx
open Idealize.ShloMosaic.Pipeline (Dat)
open Cert.KernelIdeal Cert.KernelIdeal.Gen Cert.SetScore

variable (V : (c : Dev nD) → (b : Ref sig .tc) → Buf (Elt Ideal) ((c : Thread nD τ).loc b))

theorem hz : (![0, 0] : Fin 2 → Nat) = fun _ => 0 := funext fun a => by fin_cases a <;> rfl

/-- Every row of the stacked inputs embedded: entry `(R, o)` is output `o` of the embedding of row `R`; the bias
    rows are the one row of `[1, 60]` and `[1, 5]` arrays. -/
def rows (X : S8192x30.Idx → EReal) (W1 : S30x60.Idx → EReal) (B1 : S1x60.Idx → EReal) (W2 : S60x5.Idx → EReal)
    (B2 : S1x5.Idx → EReal) : S8192x5.Idx → EReal := fun i =>
  embed (fun d => X (ix2 (⟨(i 0).val, (i 0).isLt⟩ : Fin 8192) d)) (fun d h => W1 (ix2 d h)) (fun h => B1 (ix2 (0 : Fin 1) h))
    (fun h o => W2 (ix2 h o)) (fun o => B2 (ix2 (0 : Fin 1) o)) (⟨(i 1).val, (i 1).isLt⟩ : Fin 5)

/-- `rows` at an index whose coordinates are named. -/
theorem rows_at (X : S8192x30.Idx → EReal) (W1 : S30x60.Idx → EReal) (B1 : S1x60.Idx → EReal) (W2 : S60x5.Idx → EReal)
    (B2 : S1x5.Idx → EReal) (i : S8192x5.Idx) (R : Fin 8192) (o : Fin 5) (hR : (i 0).val = R.val) (ho : (i 1).val = o.val) :
    rows X W1 B1 W2 B2 i = embed (fun d => X (ix2 R d)) (fun d h => W1 (ix2 d h)) (fun h => B1 (ix2 (0 : Fin 1) h))
      (fun h o => W2 (ix2 h o)) (fun o => B2 (ix2 (0 : Fin 1) o)) o := by
  unfold rows
  rw [show (⟨(i 0).val, (i 0).isLt⟩ : Fin 8192) = R from Fin.ext hR, show (⟨(i 1).val, (i 1).isLt⟩ : Fin 5) = o from Fin.ext ho]

/-- The printed block-index maps, decided over the four points: the row blocks of the inputs and of the result sit
    at block `t`, every other window's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read where the result's block says -/

/-- Entry `(r, d)` of the inputs' block at point `t` is entry `(2048·t + r, d)` of the stacked inputs. -/
theorem rows_block (c : Dev nD) (t : Fin cfg0.N) (r : Fin 2048) (d : Fin 30) (R : Fin 8192) (hR : R.val = t.val * 2048 + r.val) :
    (iblk0 V c 0 t : Vec Ideal S2048x30 .f32) (ix2 r d) = (V c main_v2 : S8192x30.Idx → EReal) (ix2 R d) := by
  obtain ⟨e0, e1, -⟩ := idx_facts t
  unfold iblk0
  rw [View.read_apply]
  show V c main_v2 _ = V c main_v2 _
  congr 1
  funext a
  apply Fin.ext
  match a with
  | ⟨0, _⟩ => show win0_0.index t 0 * 2048 + 1 * r.val = R.val; rw [e0, hR]; omega
  | ⟨1, _⟩ => show win0_0.index t 1 * 30 + 1 * d.val = d.val; rw [e1]; omega

/-- The first weight matrix is staged whole at every point. -/
theorem w1_block (c : Dev nD) (t : Fin cfg0.N) (d : Fin 30) (h : Fin 60) :
    (iblk0 V c 1 t : Vec Ideal S30x60 .f32) (ix2 d h) = (V c main_arg2 : S30x60.Idx → EReal) (ix2 d h) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 30 + 1 * d.val = d.val; rw [e0]; omega
  | ⟨1, _⟩ => show win0_1.index t 1 * 60 + 1 * h.val = h.val; rw [e1]; omega

/-- The first bias row is staged whole at every point. -/
theorem b1_block (c : Dev nD) (t : Fin cfg0.N) (u : Fin 1) (h : Fin 60) :
    (iblk0 V c 2 t : Vec Ideal S1x60 .f32) (ix2 u h) = (V c main_v0 : S1x60.Idx → EReal) (ix2 u h) := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t 0 * 1 + 1 * u.val = u.val; rw [e0]; omega
  | ⟨1, _⟩ => show win0_2.index t 1 * 60 + 1 * h.val = h.val; rw [e1]; omega

/-- The second weight matrix is staged whole at every point. -/
theorem w2_block (c : Dev nD) (t : Fin cfg0.N) (h : Fin 60) (o : Fin 5) :
    (iblk0 V c 3 t : Vec Ideal S60x5 .f32) (ix2 h o) = (V c main_arg4 : S60x5.Idx → EReal) (ix2 h o) := by
  obtain ⟨-, -, -, -, -, -, e0, e1, -⟩ := idx_facts t
  unfold iblk0
  rw [View.read_apply]
  show V c main_arg4 _ = V c main_arg4 _
  congr 1
  funext a
  apply Fin.ext
  match a with
  | ⟨0, _⟩ => show win0_3.index t 0 * 60 + 1 * h.val = h.val; rw [e0]; omega
  | ⟨1, _⟩ => show win0_3.index t 1 * 5 + 1 * o.val = o.val; rw [e1]; omega

/-- The second bias row is staged whole at every point. -/
theorem b2_block (c : Dev nD) (t : Fin cfg0.N) (u : Fin 1) (o : Fin 5) :
    (iblk0 V c 4 t : Vec Ideal S1x5 .f32) (ix2 u o) = (V c main_v1 : S1x5.Idx → EReal) (ix2 u o) := by
  obtain ⟨-, -, -, -, -, -, -, -, e0, e1, -⟩ := idx_facts t
  unfold iblk0
  rw [View.read_apply]
  show V c main_v1 _ = V c main_v1 _
  congr 1
  funext a
  apply Fin.ext
  match a with
  | ⟨0, _⟩ => show win0_4.index t 0 * 1 + 1 * u.val = u.val; rw [e0]; omega
  | ⟨1, _⟩ => show win0_4.index t 1 * 5 + 1 * o.val = o.val; rw [e1]; omega

/-! ## What a point writes back, the cover, the array -/

/-- What point `t` writes back is block `t` of `rows` of the arrays the launch finds. -/
theorem flushed_rows (c : Dev nD) (t : Fin cfg0.N) :
    (dat0 V c).flushed 5 t = ((cfg0.win 5).blk t).view.read (Elt Ideal)
      (rows (V c main_v2) (V c main_arg2) (V c main_v0) (V c main_arg4) (V c main_v1)) := by
  show (cfg0.win 5).cut (grid0.coords t) ((dat0 V c).after 5 t) = _
  rw [after0_5]
  unfold out0_5
  rw [View.canon_unit_zero hz]
  simp only [View.ld_unit_zero (S := S2048x30) hz, View.ld_unit_zero (S := S30x60) hz, View.ld_unit_zero (S := S1x60) hz,
    View.ld_unit_zero (S := S60x5) hz, View.ld_unit_zero (S := S1x5) hz]
  funext j
  obtain ⟨r, o, rfl⟩ : ∃ (r : Fin 2048) (o : Fin 5), j = ix2 r o := ⟨j 0, j 1, eq_ix2 j⟩
  obtain ⟨-, -, -, -, -, -, -, -, -, -, e0, e1⟩ := idx_facts t
  have ht : t.val < 4 := lt_of_lt_of_eq t.isLt (N_0 : cfg0.N = 4)
  have hr : r.val < 2048 := r.isLt
  refine (stored_apply (iblk0 V c 0 t) (iblk0 V c 1 t) (iblk0 V c 2 t) (iblk0 V c 3 t) (iblk0 V c 4 t) r o).trans ?_
  refine Eq.trans ?_ (rows_at (V c main_v2) (V c main_arg2) (V c main_v0) (V c main_arg4) (V c main_v1)
    (((cfg0.win 5).blk t).view.emb (ix2 r o)) ⟨t.val * 2048 + r.val, by omega⟩ o
    (by show win0_5.index t 0 * 2048 + 1 * r.val = t.val * 2048 + r.val; rw [e0]; omega)
    (by show win0_5.index t 1 * 5 + 1 * o.val = o.val; rw [e1]; omega)).symm
  rw [show (fun d => (iblk0 V c 0 t : Vec Ideal S2048x30 .f32) (ix2 r d))
        = fun d => (V c main_v2 : S8192x30.Idx → EReal) (ix2 (⟨t.val * 2048 + r.val, by omega⟩ : Fin 8192) d)
      from funext fun d => rows_block V c t r d _ rfl,
    show (fun d h => (iblk0 V c 1 t : Vec Ideal S30x60 .f32) (ix2 d h)) = fun d h => (V c main_arg2 : S30x60.Idx → EReal) (ix2 d h)
      from funext fun d => funext fun h => w1_block V c t d h,
    show (fun h => (iblk0 V c 2 t : Vec Ideal S1x60 .f32) (ix2 (0 : Fin 1) h)) = fun h => (V c main_v0 : S1x60.Idx → EReal) (ix2 (0 : Fin 1) h)
      from funext fun h => b1_block V c t 0 h,
    show (fun h o => (iblk0 V c 3 t : Vec Ideal S60x5 .f32) (ix2 h o)) = fun h o => (V c main_arg4 : S60x5.Idx → EReal) (ix2 h o)
      from funext fun h => funext fun o => w2_block V c t h o,
    show (fun o => (iblk0 V c 4 t : Vec Ideal S1x5 .f32) (ix2 (0 : Fin 1) o)) = fun o => (V c main_v1 : S1x5.Idx → EReal) (ix2 (0 : Fin 1) o)
      from funext fun o => b2_block V c t 0 o]

/-- An index of the result array is in point `t`'s block iff each coordinate is in the block's range on its axis. -/
theorem mem_blk (t : Fin cfg0.N) (i : S8192x5.Idx) :
    i ∈ ((cfg0.win 5).blk t).view.set ↔ ∀ a : Fin 2, win0_5.index t a * S2048x5.size a ≤ (i a).val
      ∧ (i a).val < win0_5.index t a * S2048x5.size a + S2048x5.size a := by
  show i ∈ ((View.whole main_v3).slice (win0_5.rect t)).set ↔ _
  rw [View.set_slice_whole, Rect.mem_set_unit]
  exact Iff.rfl

/-- Row `R` of the result lies in the block of point `R / 2048`, and every point writes back. -/
theorem covered (i : S8192x5.Idx) : ∃ t : Fin cfg0.N, (cfg0.win 5).flush t = true ∧ i ∈ ((cfg0.win 5).blk t).view.set := by
  have hi0 : (i 0).val < 8192 := (i 0).isLt
  have hi1 : (i 1).val < 5 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 2048 ≤ (i 0).val ∧ (i 0).val < win0_5.index t 0 * 2048 + 2048
    rw [e0, ht]; omega
  | ⟨1, _⟩ =>
    show win0_5.index t 1 * 5 ≤ (i 1).val ∧ (i 1).val < win0_5.index t 1 * 5 + 5
    rw [e1]; omega

/-- The result array after the launch: every row of the stacked inputs embedded. -/
theorem final_rows (c : Dev nD) :
    (dat0 V c).arrAt 5 cfg0.N = rows (V c main_v2) (V c main_arg2) (V c main_v0) (V c main_arg4) (V c main_v1) :=
  (dat0 V c).arrAt_eq_of_cover 5 _ (fun t _ => flushed_rows V c t) covered

end Cert.KernelIdeal.EmbedValue

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.PairPayload.lean ====
/-
  What the pairwise body stores, read at one entry.

  The body holds a block `q` of embedded query rows, `[512, 5]`, and the embedded corpus transposed, `cT` of shape
  `[5, 4096]`.  For each of the five outputs `k` it cuts column `k` of `q` and row `k` of `cT`, repeats the column
  along the rows' axis and the row down the columns' axis, subtracts, takes the positive part, and adds the result
  onto a running total that starts at zero; it stores zero minus the total.  At `(r, j)` a repeated column reads
  `q (r, k)` and a repeated row reads `cT (k, j)`, so the entry is the five-term fold, which is `score`.
-/
import proofs.«137226_j17910013624325_2_alg».proof.Proof.Gen.KernelIdeal.Skeleton
import proofs.«137226_j17910013624325_2_alg».proof.Proof.Spec
import proofs.«137226_j17910013624325_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PairValue

open Idealize.ShloMosaic Idealize.ShloMosaic.ValueIdx Cert.KernelIdeal Cert.KernelIdeal.Gen Cert.SetScore Cert.LibLayout

/-- Column `k` of the query block (cut at offset `o = k`), repeated along the rows' axis, read at `(r, j)`. -/
theorem column_apply (q : FVec Ideal S512x5 .f32) (o : Nat) (hs : S512x5.Slices ![0, o] S512x1) (k : Fin 5) (hk : k.val = o)
    (r : Fin 512) (j : Fin 4096) :
    broadcastTo S512x4096 (extractStridedSlice S512x1 ![0, o] q hs) broadcasts_S512x1_S512x4096 (ix2 r j) = q (ix2 r k) := by
  rw [broadcastTo_a1_ab_apply]
  exact slice2_axis1_apply o q hs r (0 : Fin 1) k (by rw [hk]; rfl)

/-- Row `k` of the transposed corpus (cut at offset `o = k`), repeated down the columns' axis, read at `(r, j)`. -/
theorem row_apply (cT : FVec Ideal S5x4096 .f32) (o : Nat) (hs : S5x4096.Slices ![o, 0] S1x4096) (k : Fin 5) (hk : k.val = o)
    (r : Fin 512) (j : Fin 4096) :
    broadcastTo S512x4096 (extractStridedSlice S1x4096 ![o, 0] cT hs) broadcasts_S1x4096_S512x4096 (ix2 r j) = cT (ix2 k j) := by
  rw [broadcastTo_1b_ab_apply]
  exact slice2_axis0_apply o cT hs (0 : Fin 1) j k (by rw [hk]; rfl)

/-- One of the five terms at `(r, j)`. -/
theorem term_apply (q : FVec Ideal S512x5 .f32) (cT : FVec Ideal S5x4096 .f32) (o : Nat)
    (hq : S512x5.Slices ![0, o] S512x1) (hc : S5x4096.Slices ![o, 0] S1x4096) (k : Fin 5) (hk : k.val = o) (r : Fin 512) (j : Fin 4096) :
    maximumf (subf (broadcastTo S512x4096 (extractStridedSlice S512x1 ![0, o] q hq) broadcasts_S512x1_S512x4096)
        (broadcastTo S512x4096 (extractStridedSlice S1x4096 ![o, 0] cT hc) broadcasts_S1x4096_S512x4096))
      (broadcast S512x4096 (Scalar.ofBits (F := Ideal) .f32 0x00000000#32)) (ix2 r j)
      = max (q (ix2 r k) - cT (ix2 k j)) 0 := by
  rw [maximumf_apply, subf_apply, column_apply q o hq k hk, row_apply cT o hc k hk, broadcast_apply]
  show max _ (Ideal.ofBits .f32 0x00000000#32) = _
  rw [Ideal.ofBits_zero_f32]

/-- The entry the body stores at `(r, j)` is the score of row `r` of its query block against column `j` of the
    transposed corpus. -/
theorem stored_apply (x0 : Vec Ideal S512x5 .f32) (x1 : Vec Ideal S5x4096 .f32) (r : Fin 512) (j : Fin 4096) :
    k1_pay1 (F := Ideal) x0 x1 (ix2 r j) = score (fun k => x0 (ix2 r k)) (fun k => x1 (ix2 k j)) := by
  unfold k1_pay1
  simp only [shapeCast_self]
  rw [subf_apply, addf_apply, addf_apply, addf_apply, addf_apply, addf_apply, broadcast_apply,
    term_apply x0 x1 0 _ _ (0 : Fin 5) rfl, term_apply x0 x1 1 _ _ (1 : Fin 5) rfl, term_apply x0 x1 2 _ _ (2 : Fin 5) rfl,
    term_apply x0 x1 3 _ _ (3 : Fin 5) rfl, term_apply x0 x1 4 _ _ (4 : Fin 5) rfl]
  show Ideal.ofBits .f32 0x00000000#32 - (((((Ideal.ofBits .f32 0x00000000#32 + _) + _) + _) + _) + _) = _
  rw [Ideal.ofBits_zero_f32]
  exact score_of_fold (fun k => x0 (ix2 r k)) (fun k => x1 (ix2 k j))

end Cert.KernelIdeal.PairValue

end
-- ==== Proof.PairRegion.lean ====
/-
  The second kernel launch, whole: what its result array holds afterwards, as one function of the arrays it finds.

  The launch walks eight grid points.  At point `t` the body is given rows `512·t … 512·t + 511` of the embedded
  queries and the transposed embedded corpus whole, and writes back rows `512·t … 512·t + 511` of the result.  What it
  writes at `(r, j)` is the score of query row `512·t + r` against column `j` of the transposed corpus, so every
  write-back is its block of ONE array, `scores`.  The eight blocks cover the result (row `R` lies in block
  `R / 512`), so the array ends at `scores`.
-/
import proofs.«137226_j17910013624325_2_alg».proof.Proof.Gen.KernelIdeal.Frame
import proofs.«137226_j17910013624325_2_alg».proof.Proof.PairPayload
import Idealize.ShloMosaic.Lib.Pipeline.Value

set_option maxRecDepth 16384

noncomputable section

namespace Cert.KernelIdeal.PairValue

open Idealize.ShloMosaic Idealize.ShloMosaic.TcCoe Idealize.SL.Sem Idealize.ShloMosaic.ValueIdx
open Idealize.ShloMosaic.Pipeline (Dat)
open Cert.KernelIdeal Cert.KernelIdeal.Gen Cert.SetScore

variable (V : (c : Dev nD) → (b : Ref sig .tc) → Buf (Elt Ideal) ((c : Thread nD τ).loc b))

theorem hz : (![0, 0] : Fin 2 → Nat) = fun _ => 0 := funext fun a => by fin_cases a <;> rfl

/-- Every query against every corpus row: entry `(i, j)` is the score of row `i` of the embedded queries against
    column `j` of the transposed embedded corpus. -/
def scores (Qe : S4096x5.Idx → EReal) (CT : S5x4096.Idx → EReal) : S4096x4096.Idx → EReal := fun i =>
  score (fun k => Qe (ix2 (⟨(i 0).val, (i 0).isLt⟩ : Fin 4096) k)) (fun k => CT (ix2 k (⟨(i 1).val, (i 1).isLt⟩ : Fin 4096)))

/-- `scores` at an index whose coordinates are named. -/
theorem scores_at (Qe : S4096x5.Idx → EReal) (CT : S5x4096.Idx → EReal) (i : S4096x4096.Idx) (R J : Fin 4096)
    (hR : (i 0).val = R.val) (hJ : (i 1).val = J.val) :
    scores Qe CT i = score (fun k => Qe (ix2 R k)) (fun k => CT (ix2 k J)) := by
  unfold scores
  rw [show (⟨(i 0).val, (i 0).isLt⟩ : Fin 4096) = R from Fin.ext hR, show (⟨(i 1).val, (i 1).isLt⟩ : Fin 4096) = J from Fin.ext hJ]

/-- The printed block-index maps, decided over the eight points: the row blocks of the queries and of the result
    sit at block `t`, the transposed corpus is staged whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(r, k)` of the queries' block at point `t` is entry `(512·t + r, k)` of the embedded queries. -/
theorem query_block (c : Dev nD) (t : Fin cfg1.N) (r : Fin 512) (k : Fin 5) (R : Fin 4096) (hR : R.val = t.val * 512 + r.val) :
    (iblk1 V c 0 t : Vec Ideal S512x5 .f32) (ix2 r k) = (V c main_v4 : S4096x5.Idx → EReal) (ix2 R k) := by
  obtain ⟨e0, e1, -⟩ := idx_facts t
  unfold iblk1
  rw [View.read_apply]
  show V c main_v4 _ = V c main_v4 _
  congr 1
  funext a
  apply Fin.ext
  match a with
  | ⟨0, _⟩ => show win1_0.index t 0 * 512 + 1 * r.val = R.val; rw [e0, hR]; omega
  | ⟨1, _⟩ => show win1_0.index t 1 * 5 + 1 * k.val = k.val; rw [e1]; omega

/-- The transposed corpus is staged whole at every point. -/
theorem corpus_block (c : Dev nD) (t : Fin cfg1.N) (k : Fin 5) (j : Fin 4096) :
    (iblk1 V c 1 t : Vec Ideal S5x4096 .f32) (ix2 k j) = (V c main_v6 : S5x4096.Idx → EReal) (ix2 k j) := by
  obtain ⟨-, -, e0, e1, -⟩ := idx_facts t
  unfold iblk1
  rw [View.read_apply]
  show V c main_v6 _ = V c main_v6 _
  congr 1
  funext a
  apply Fin.ext
  match a with
  | ⟨0, _⟩ => show win1_1.index t 0 * 5 + 1 * k.val = k.val; rw [e0]; omega
  | ⟨1, _⟩ => show win1_1.index t 1 * 4096 + 1 * j.val = j.val; rw [e1]; omega

/-- What point `t` writes back is block `t` of `scores` of the arrays the launch finds. -/
theorem flushed_scores (c : Dev nD) (t : Fin cfg1.N) :
    (dat1 V c).flushed 2 t = ((cfg1.win 2).blk t).view.read (Elt Ideal) (scores (V c main_v4) (V c main_v6)) := by
  show (cfg1.win 2).cut (grid1.coords t) ((dat1 V c).after 2 t) = _
  rw [after1_2]
  unfold out1_2
  rw [View.canon_unit_zero hz]
  simp only [View.ld_unit_zero (S := S512x5) hz, View.ld_unit_zero (S := S5x4096) hz]
  funext y
  obtain ⟨r, j, rfl⟩ : ∃ (r : Fin 512) (j : Fin 4096), y = ix2 r j := ⟨y 0, y 1, eq_ix2 y⟩
  obtain ⟨-, -, -, -, e0, e1⟩ := idx_facts t
  have ht : t.val < 8 := lt_of_lt_of_eq t.isLt (N_1 : cfg1.N = 8)
  have hr : r.val < 512 := r.isLt
  refine (stored_apply (iblk1 V c 0 t) (iblk1 V c 1 t) r j).trans ?_
  refine Eq.trans ?_ (scores_at (V c main_v4) (V c main_v6) (((cfg1.win 2).blk t).view.emb (ix2 r j))
    ⟨t.val * 512 + r.val, by omega⟩ j
    (by show win1_2.index t 0 * 512 + 1 * r.val = t.val * 512 + r.val; rw [e0]; omega)
    (by show win1_2.index t 1 * 4096 + 1 * j.val = j.val; rw [e1]; omega)).symm
  rw [show (fun k => (iblk1 V c 0 t : Vec Ideal S512x5 .f32) (ix2 r k))
        = fun k => (V c main_v4 : S4096x5.Idx → EReal) (ix2 (⟨t.val * 512 + r.val, by omega⟩ : Fin 4096) k)
      from funext fun k => query_block V c t r k _ rfl,
    show (fun k => (iblk1 V c 1 t : Vec Ideal S5x4096 .f32) (ix2 k j)) = fun k => (V c main_v6 : S5x4096.Idx → EReal) (ix2 k j)
      from funext fun k => corpus_block V c t k j]

/-- An index of the result array is in point `t`'s block iff each coordinate is in the block's range on its axis. -/
theorem mem_blk (t : Fin cfg1.N) (i : S4096x4096.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v7).slice (win1_2.rect t)).set ↔ _
  rw [View.set_slice_whole, Rect.mem_set_unit]
  exact Iff.rfl

/-- Row `R` of the result lies in the block of point `R / 512`, and every point writes back. -/
theorem covered (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, e0, e1⟩ := idx_facts t
  refine ⟨t, flush1_2 t, ?_⟩
  rw [mem_blk]
  intro a
  match a with
  | ⟨0, _⟩ =>
    show win1_2.index t 0 * 512 ≤ (i 0).val ∧ (i 0).val < win1_2.index t 0 * 512 + 512
    rw [e0, ht]; omega
  | ⟨1, _⟩ =>
    show win1_2.index t 1 * 4096 ≤ (i 1).val ∧ (i 1).val < win1_2.index t 1 * 4096 + 4096
    rw [e1]; omega

/-- The result array after the launch: every query scored against every corpus row. -/
theorem final_scores (c : Dev nD) : (dat1 V c).arrAt 2 cfg1.N = scores (V c main_v4) (V c main_v6) :=
  (dat1 V c).arrAt_eq_of_cover 2 _ (fun t _ => flushed_scores V c t) covered

end Cert.KernelIdeal.PairValue

end
-- ==== Proof.KernelValue.lean ====
/-
  The kernel program's result is `G`.

  Before the first launch the host stacks the queries on top of the corpus (`[8192, 30]`) and views each bias vector
  as a one-row array.  The first launch leaves every stacked row embedded (`rows`).  The host then cuts the
  embedded rows in two — the first 4096 are the queries', the last 4096 the corpus's — and transposes the corpus
  half.  The second launch leaves, at `(p, q)`, the score of row `p` of the first half against column `q` of the
  transposed second half.  Row `p` of the stack is query `p`; column `q` of the transpose of the second half is row
  `4096 + q` of the stack, which is corpus row `q`; a one-row view of a vector reads the vector.  So the result at
  `(p, q)` is the score of the embedded query `p` against the embedded corpus row `q`.
-/
import proofs.«137226_j17910013624325_2_alg».proof.Proof.Gen.KernelIdeal.Frame
import proofs.«137226_j17910013624325_2_alg».proof.Proof.EmbedRegion
import proofs.«137226_j17910013624325_2_alg».proof.Proof.PairRegion
import Idealize.ShloMosaic.Lib.StableHlo.Run
import Idealize.ShloMosaic.Lib.ValueLayout
import Idealize.ShloMosaic.Lib.Pipeline.Value

set_option maxRecDepth 16384

noncomputable section

namespace Cert.KernelIdeal.KernelValue

open Idealize.ShloMosaic Idealize.ShloMosaic.TcCoe Idealize.SL.Sem Idealize.ShloMosaic.ValueIdx Idealize.ShloMosaic.StableHlo
open Cert.KernelIdeal Cert.KernelIdeal.Gen Cert.SetScore
open Cert.KernelIdeal.EmbedValue (rows rows_at final_rows)
open Cert.KernelIdeal.PairValue (scores scores_at final_scores)

variable (m : (ℓ : Loc nD τ sig) → Buf (Elt Ideal) ℓ) (ρ : Dev nD → PrngReg)

/-! ## What the first launch finds -/

/-- The stacked inputs: the queries on top of the corpus. -/
theorem stacked (c : Dev nD) :
    (V1 m ρ c main_v2 : S8192x30.Idx → EReal)
      = concatenate S8192x30 0 [⟨S4096x30, m ((c : Thread nD τ).loc main_arg0)⟩, ⟨S4096x30, m ((c : Thread nD τ).loc main_arg1)⟩]
          concatenates_S4096x30_S4096x30_S8192x30_d0 := by
  show StableHlo.after hostOps0 (W0 m ρ c) (Proc.devRef .tc main_v2) = _
  after_results

/-- The first bias, as a one-row array. -/
theorem bias1 (c : Dev nD) :
    (V1 m ρ c main_v0 : S1x60.Idx → EReal) = shapeCast S1x60 (m ((c : Thread nD τ).loc main_arg3)) shapeCasts_S60_S1x60 := by
  show StableHlo.after hostOps0 (W0 m ρ c) (Proc.devRef .tc main_v0) = _
  after_results
  rfl

/-- The second bias, as a one-row array. -/
theorem bias2 (c : Dev nD) :
    (V1 m ρ c main_v1 : S1x5.Idx → EReal) = shapeCast S1x5 (m ((c : Thread nD τ).loc main_arg5)) shapeCasts_S5_S1x5 := by
  show StableHlo.after hostOps0 (W0 m ρ c) (Proc.devRef .tc main_v1) = _
  after_results
  rfl

/-- The weight matrices are the arguments. -/
theorem weights1 (c : Dev nD) : (V1 m ρ c main_arg2 : S30x60.Idx → EReal) = m ((c : Thread nD τ).loc main_arg2) := by
  show StableHlo.after hostOps0 (W0 m ρ c) (Proc.devRef .tc main_arg2) = _
  after_results

theorem weights2 (c : Dev nD) : (V1 m ρ c main_arg4 : S60x5.Idx → EReal) = m ((c : Thread nD τ).loc main_arg4) := by
  show StableHlo.after hostOps0 (W0 m ρ c) (Proc.devRef .tc main_arg4) = _
  after_results

/-! ## What the first launch leaves: every stacked row embedded -/

theorem embedded (c : Dev nD) :
    (W2 m ρ c (Proc.devRef .tc main_v3) : S8192x5.Idx → EReal)
      = rows (V1 m ρ c main_v2) (V1 m ρ c main_arg2) (V1 m ρ c main_v0) (V1 m ρ c main_arg4) (V1 m ρ c main_v1) :=
  (W2_arr m ρ c 5).trans (final_rows (V1 m ρ) c)

/-- The weights and biases the embedding is taken with, as functions of coordinates. -/
theorem network (c : Dev nD) :
    (fun (d : Fin 30) (h : Fin 60) => (V1 m ρ c main_arg2 : S30x60.Idx → EReal) (ix2 d h))
        = (fun d h => (m ((c : Thread nD τ).loc main_arg2) : S30x60.Idx → EReal) (ix2 d h))
    ∧ (fun (h : Fin 60) => (V1 m ρ c main_v0 : S1x60.Idx → EReal) (ix2 (0 : Fin 1) h))
        = (fun h => (m ((c : Thread nD τ).loc main_arg3) : S60.Idx → EReal) (ix1 h))
    ∧ (fun (h : Fin 60) (o : Fin 5) => (V1 m ρ c main_arg4 : S60x5.Idx → EReal) (ix2 h o))
        = (fun h o => (m ((c : Thread nD τ).loc main_arg4) : S60x5.Idx → EReal) (ix2 h o))
    ∧ (fun (o : Fin 5) => (V1 m ρ c main_v1 : S1x5.Idx → EReal) (ix2 (0 : Fin 1) o))
        = (fun o => (m ((c : Thread nD τ).loc main_arg5) : S5.Idx → EReal) (ix1 o)) := by
  refine ⟨?_, ?_, ?_, ?_⟩
  · rw [weights1]
  · funext h; rw [bias1]; exact shapeCast_a_1a_apply _ _ (0 : Fin 1) h
  · rw [weights2]
  · funext o; rw [bias2]; exact shapeCast_a_1a_apply _ _ (0 : Fin 1) o

/-- A row of the upper half of the stack is a query row. -/
theorem stacked_upper (c : Dev nD) (p : Fin 4096) (R : Fin 8192) (hR : R.val = p.val) (d : Fin 30) :
    (V1 m ρ c main_v2 : S8192x30.Idx → EReal) (ix2 R d) = (m ((c : Thread nD τ).loc main_arg0) : S4096x30.Idx → EReal) (ix2 p d) := by
  rw [stacked]
  exact concatenate_pair_apply_left (s₁ := S4096x30) (s₂ := S4096x30) (0 : Fin 2) _ _ _ (ix2 R d) rfl (ix2 p d) (fun b => by
    match b with
    | ⟨0, _⟩ => exact hR.symm
    | ⟨1, _⟩ => rfl)

/-- A row of the lower half of the stack is a corpus row. -/
theorem stacked_lower (c : Dev nD) (q : Fin 4096) (R : Fin 8192) (hR : R.val = 4096 + q.val) (d : Fin 30) :
    (V1 m ρ c main_v2 : S8192x30.Idx → EReal) (ix2 R d) = (m ((c : Thread nD τ).loc main_arg1) : S4096x30.Idx → EReal) (ix2 q d) := by
  rw [stacked]
  exact concatenate_pair_apply_right (s₁ := S4096x30) (s₂ := S4096x30) (0 : Fin 2) _ _ _ (ix2 R d) rfl rfl (ix2 q d) (fun b hb => by
    match b with
    | ⟨0, _⟩ => exact absurd rfl hb
    | ⟨1, _⟩ => rfl) (by show q.val + 4096 = R.val; omega)

/-- Row `p` of the embedded stack, `p < 4096`: the embedding of query row `p`. -/
theorem embedded_upper (c : Dev nD) (p : Fin 4096) (R : Fin 8192) (hR : R.val = p.val) (k : Fin 5) :
    (W2 m ρ c (Proc.devRef .tc main_v3) : S8192x5.Idx → EReal) (ix2 R k)
      = embed (fun d => (m ((c : Thread nD τ).loc main_arg0) : S4096x30.Idx → EReal) (ix2 p d))
          (fun d h => (m ((c : Thread nD τ).loc main_arg2) : S30x60.Idx → EReal) (ix2 d h))
          (fun h => (m ((c : Thread nD τ).loc main_arg3) : S60.Idx → EReal) (ix1 h))
          (fun h o => (m ((c : Thread nD τ).loc main_arg4) : S60x5.Idx → EReal) (ix2 h o))
          (fun o => (m ((c : Thread nD τ).loc main_arg5) : S5.Idx → EReal) (ix1 o)) k := by
  obtain ⟨n1, n2, n3, n4⟩ := network m ρ c
  rw [embedded, rows_at _ _ _ _ _ (ix2 R k) R k rfl rfl, n1, n2, n3, n4,
    show (fun d => (V1 m ρ c main_v2 : S8192x30.Idx → EReal) (ix2 R d))
        = fun d => (m ((c : Thread nD τ).loc main_arg0) : S4096x30.Idx → EReal) (ix2 p d)
      from funext fun d => stacked_upper m ρ c p R hR d]

/-- Row `4096 + q` of the embedded stack: the embedding of corpus row `q`. -/
theorem embedded_lower (c : Dev nD) (q : Fin 4096) (R : Fin 8192) (hR : R.val = 4096 + q.val) (k : Fin 5) :
    (W2 m ρ c (Proc.devRef .tc main_v3) : S8192x5.Idx → EReal) (ix2 R k)
      = embed (fun d => (m ((c : Thread nD τ).loc main_arg1) : S4096x30.Idx → EReal) (ix2 q d))
          (fun d h => (m ((c : Thread nD τ).loc main_arg2) : S30x60.Idx → EReal) (ix2 d h))
          (fun h => (m ((c : Thread nD τ).loc main_arg3) : S60.Idx → EReal) (ix1 h))
          (fun h o => (m ((c : Thread nD τ).loc main_arg4) : S60x5.Idx → EReal) (ix2 h o))
          (fun o => (m ((c : Thread nD τ).loc main_arg5) : S5.Idx → EReal) (ix1 o)) k := by
  obtain ⟨n1, n2, n3, n4⟩ := network m ρ c
  rw [embedded, rows_at _ _ _ _ _ (ix2 R k) R k rfl rfl, n1, n2, n3, n4,
    show (fun d => (V1 m ρ c main_v2 : S8192x30.Idx → EReal) (ix2 R d))
        = fun d => (m ((c : Thread nD τ).loc main_arg1) : S4096x30.Idx → EReal) (ix2 q d)
      from funext fun d => stacked_lower m ρ c q R hR d]

/-! ## What the second launch finds -/

/-- The embedded queries: the upper half of the embedded stack. -/
theorem queries_embedded (c : Dev nD) :
    (V3 m ρ c main_v4 : S4096x5.Idx → EReal)
      = extractStridedSlice S4096x5 ![0, 0] (W2 m ρ c (Proc.devRef .tc main_v3)) slices_S8192x5_S4096x5_0_0 := by
  show StableHlo.after hostOps1 (W2 m ρ c) (Proc.devRef .tc main_v4) = _
  after_results

/-- The embedded corpus, transposed: the lower half of the embedded stack with its axes exchanged. -/
theorem corpus_transposed (c : Dev nD) :
    (V3 m ρ c main_v6 : S5x4096.Idx → EReal)
      = transpose S5x4096 [1, 0] (extractStridedSlice S4096x5 ![4096, 0] (W2 m ρ c (Proc.devRef .tc main_v3)) slices_S8192x5_S4096x5_4096_0)
          transposes_S4096x5_S5x4096_1_0 := by
  show StableHlo.after hostOps1 (W2 m ρ c) (Proc.devRef .tc main_v6) = _
  after_results

/-! ## The result -/

/-- The result array when the program returns is `G` of the six arguments. -/
theorem result_value (c : Dev nD) :
    (W4 m ρ c (Proc.devRef .tc main_v7) : S4096x4096.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W4_arr m ρ c 2).trans (final_scores (V3 m ρ) c)).trans ?_
  funext i
  obtain ⟨p, q, rfl⟩ : ∃ (p q : Fin 4096), i = ix2 p q := ⟨i 0, i 1, eq_ix2 i⟩
  rw [G_at _ _ _ _ _ _ (ix2 p q) p q rfl rfl, scores_at _ _ (ix2 p q) p q rfl rfl]
  have hq : (fun k : Fin 5 => (V3 m ρ c main_v4 : S4096x5.Idx → EReal) (ix2 p k))
      = embed (fun d => (m ((c : Thread nD τ).loc main_arg0) : S4096x30.Idx → EReal) (ix2 p d))
          (fun d h => (m ((c : Thread nD τ).loc main_arg2) : S30x60.Idx → EReal) (ix2 d h))
          (fun h => (m ((c : Thread nD τ).loc main_arg3) : S60.Idx → EReal) (ix1 h))
          (fun h o => (m ((c : Thread nD τ).loc main_arg4) : S60x5.Idx → EReal) (ix2 h o))
          (fun o => (m ((c : Thread nD τ).loc main_arg5) : S5.Idx → EReal) (ix1 o)) := by
    funext k
    have hp : p.val < 4096 := p.isLt
    rw [queries_embedded, slice2_axis0_apply 0 _ _ p k (⟨p.val, by omega⟩ : Fin 8192) (by show p.val = 0 + p.val; omega)]
    exact embedded_upper m ρ c p _ rfl k
  have hc : (fun k : Fin 5 => (V3 m ρ c main_v6 : S5x4096.Idx → EReal) (ix2 k q))
      = embed (fun d => (m ((c : Thread nD τ).loc main_arg1) : S4096x30.Idx → EReal) (ix2 q d))
          (fun d h => (m ((c : Thread nD τ).loc main_arg2) : S30x60.Idx → EReal) (ix2 d h))
          (fun h => (m ((c : Thread nD τ).loc main_arg3) : S60.Idx → EReal) (ix1 h))
          (fun h o => (m ((c : Thread nD τ).loc main_arg4) : S60x5.Idx → EReal) (ix2 h o))
          (fun o => (m ((c : Thread nD τ).loc main_arg5) : S5.Idx → EReal) (ix1 o)) := by
    funext k
    have hq' : q.val < 4096 := q.isLt
    rw [corpus_transposed, transpose_ix2_apply _ _ k q,
      slice2_axis0_apply 4096 _ _ q k (⟨4096 + q.val, by omega⟩ : Fin 8192) rfl]
    exact embedded_lower m ρ c q _ rfl k
  rw [hq, hc]

end Cert.KernelIdeal.KernelValue

end
-- ==== Proof.RefValue.lean ====
/-
  The reference program computes `G`.

  The reference embeds the queries and the corpus separately — a matrix product with the first weights, the first
  bias added to every row, the positive part, a matrix product with the second weights, the second bias, the
  positive part —, lays the two embeddings out along a common `[4096, 4096, 5]` array (queries repeated along the
  second axis, corpus rows along the first), subtracts, takes the positive part, sums over the last axis from an
  initial zero and negates.  Read at `(p, q)`: the host's matrix product is the sum over the contracted coordinate;
  a repeated bias or a repeated embedding reads the entry it repeats; so the entry is `−(0 + Σ_k max (e_p k − e'_q k) 0)`
  with `e_p`, `e'_q` the embeddings of query row `p` and corpus row `q`: the score.
-/
import proofs.«137226_j17910013624325_2_alg».proof.Proof.Gen.ReferenceIdeal.Read
import proofs.«137226_j17910013624325_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.SetScore

/-- The hidden layer of the embedding of row `p`, unit `h`. -/
theorem hidden_ref (x : (⟨S4096x30, .f32⟩ : BufTy).Contents (Elt Ideal)) (x2 : (⟨S30x60, .f32⟩ : BufTy).Contents (Elt Ideal))
    (x3 : (⟨S60, .f32⟩ : BufTy).Contents (Elt Ideal)) (p : Fin 4096) (h : Fin 60) :
    val_main_v4 (F := Ideal) x x2 x3 (ix2 p h)
      = hidden (fun d => x (ix2 p d)) (fun d h => x2 (ix2 d h)) (fun h => x3 (ix1 h)) h := by
  have el : ∀ k : Fin 30, lidx_main_v0 (ix2 p h) k = ix2 p k := fun k => funext fun a => Fin.ext (by
    match a with | ⟨0, _⟩ => rfl | ⟨1, _⟩ => rfl)
  have er : ∀ k : Fin 30, ridx_main_v0 (ix2 p h) k = ix2 k h := fun k => funext fun a => Fin.ext (by
    match a with | ⟨0, _⟩ => rfl | ⟨1, _⟩ => rfl)
  have eb : idx_main_v1 (idx_main_v2 (ix2 p h)) = ix1 h := funext fun a => Fin.ext (by match a with | ⟨0, _⟩ => rfl)
  rw [val_main_v4_apply, val_main_v3_apply, val_main_v0_apply, val_main_v2_apply, val_main_v1_apply, val_main_call0_v0_apply,
    val_main_call0_cst_apply]
  simp only [Ideal.addf_def, Ideal.maximumf_def, Ideal.ofBits_def, Ideal.ofBits_zero_f32, el, er, eb]
  rfl

/-- The embedding of row `p`, output `o`. -/
theorem embed_ref (x : (⟨S4096x30, .f32⟩ : BufTy).Contents (Elt Ideal)) (x2 : (⟨S30x60, .f32⟩ : BufTy).Contents (Elt Ideal))
    (x3 : (⟨S60, .f32⟩ : BufTy).Contents (Elt Ideal)) (x4 : (⟨S60x5, .f32⟩ : BufTy).Contents (Elt Ideal))
    (x5 : (⟨S5, .f32⟩ : BufTy).Contents (Elt Ideal)) (p : Fin 4096) (o : Fin 5) :
    val_main_v9 (F := Ideal) x x2 x3 x4 x5 (ix2 p o)
      = embed (fun d => x (ix2 p d)) (fun d h => x2 (ix2 d h)) (fun h => x3 (ix1 h)) (fun h o => x4 (ix2 h o)) (fun o => x5 (ix1 o)) o := by
  have el : ∀ k : Fin 60, lidx_main_v5 (ix2 p o) k = ix2 p k := fun k => funext fun a => Fin.ext (by
    match a with | ⟨0, _⟩ => rfl | ⟨1, _⟩ => rfl)
  have er : ∀ k : Fin 60, ridx_main_v5 (ix2 p o) k = ix2 k o := fun k => funext fun a => Fin.ext (by
    match a with | ⟨0, _⟩ => rfl | ⟨1, _⟩ => rfl)
  have eb : idx_main_v6 (idx_main_v7 (ix2 p o)) = ix1 o := funext fun a => Fin.ext (by match a with | ⟨0, _⟩ => rfl)
  rw [val_main_v9_apply, val_main_v8_apply, val_main_v5_apply, val_main_v7_apply, val_main_v6_apply, val_main_call1_v0_apply,
    val_main_call1_cst_apply]
  simp only [Ideal.addf_def, Ideal.maximumf_def, Ideal.ofBits_def, Ideal.ofBits_zero_f32, el, er, eb, hidden_ref]
  rfl

/-- The corpus is embedded by the same operations as the queries. -/
theorem corpus_side (x x2 x3 x4 x5) : val_main_v19 (F := Ideal) x x2 x3 x4 x5 = val_main_v9 (F := Ideal) x x2 x3 x4 x5 := rfl

/-- One term of the sum at `(p, q)`: the positive part of the difference of the two embeddings' output `k`. -/
theorem term_ref (x0 x1 : (⟨S4096x30, .f32⟩ : BufTy).Contents (Elt Ideal)) (x2 : (⟨S30x60, .f32⟩ : BufTy).Contents (Elt Ideal))
    (x3 : (⟨S60, .f32⟩ : BufTy).Contents (Elt Ideal)) (x4 : (⟨S60x5, .f32⟩ : BufTy).Contents (Elt Ideal))
    (x5 : (⟨S5, .f32⟩ : BufTy).Contents (Elt Ideal)) (p q : Fin 4096) (k : Fin 5) :
    val_main_v25 (F := Ideal) x0 x1 x2 x3 x4 x5 (idx_main_v26 (ix2 p q) k)
      = max (embed (fun d => x0 (ix2 p d)) (fun d h => x2 (ix2 d h)) (fun h => x3 (ix1 h)) (fun h o => x4 (ix2 h o)) (fun o => x5 (ix1 o)) k
          - embed (fun d => x1 (ix2 q d)) (fun d h => x2 (ix2 d h)) (fun h => x3 (ix1 h)) (fun h o => x4 (ix2 h o)) (fun o => x5 (ix1 o)) k) 0 := by
  have eq : idx_main_v20 (idx_main_v22 (idx_main_v26 (ix2 p q) k)) = ix2 p k := funext fun a => Fin.ext (by
    match a with | ⟨0, _⟩ => rfl | ⟨1, _⟩ => rfl)
  have ec : idx_main_v21 (idx_main_v23 (idx_main_v26 (ix2 p q) k)) = ix2 q k := funext fun a => Fin.ext (by
    match a with | ⟨0, _⟩ => rfl | ⟨1, _⟩ => rfl)
  rw [val_main_v25_apply, val_main_v24_apply, val_main_v22_apply, val_main_v20_apply, val_main_v23_apply, val_main_v21_apply,
    val_main_call4_v0_apply, val_main_call4_cst_apply, corpus_side, eq, ec, embed_ref, embed_ref]
  simp only [Ideal.subf_def, Ideal.maximumf_def, Ideal.ofBits_def, Ideal.ofBits_zero_f32]

/-- The reference's result is `G` of its arguments. -/
theorem result_eq (x0 x1 : (⟨S4096x30, .f32⟩ : BufTy).Contents (Elt Ideal)) (x2 : (⟨S30x60, .f32⟩ : BufTy).Contents (Elt Ideal))
    (x3 : (⟨S60, .f32⟩ : BufTy).Contents (Elt Ideal)) (x4 : (⟨S60x5, .f32⟩ : BufTy).Contents (Elt Ideal))
    (x5 : (⟨S5, .f32⟩ : BufTy).Contents (Elt Ideal)) :
    val_main_v27 (F := Ideal) x0 x1 x2 x3 x4 x5 = G x0 x1 x2 x3 x4 x5 := by
  funext i
  obtain ⟨p, q, rfl⟩ : ∃ (p q : Fin 4096), i = ix2 p q := ⟨i 0, i 1, eq_ix2 i⟩
  rw [G_at x0 x1 x2 x3 x4 x5 (ix2 p q) p q rfl rfl, val_main_v27_apply, val_main_v26_apply, val_main_cst_apply]
  simp only [Ideal.hostNegf_def, Ideal.negf_def, Ideal.ofBits_def, Ideal.ofBits_zero_f32, term_ref]
  exact score_of_sum
    (embed (fun d => x0 (ix2 p d)) (fun d h => x2 (ix2 d h)) (fun h => x3 (ix1 h)) (fun h o => x4 (ix2 h o)) (fun o => x5 (ix1 o)))
    (embed (fun d => x1 (ix2 q d)) (fun d h => x2 (ix2 d h)) (fun h => x3 (ix1 h)) (fun h o => x4 (ix2 h o)) (fun o => x5 (ix1 o)))

end Cert.ReferenceIdeal.RefValue

end
-- ==== Proof.lean ====
/-
  A set-embedding score: every query row and every corpus row (thirty numbers each) is embedded into five numbers by
  a two-layer network with the positive-part nonlinearity, and the result at `(i, j)` is minus the sum over the five
  outputs of the positive part of the difference between query `i`'s and corpus row `j`'s embeddings.

  The kernel program stacks queries and corpus, embeds all 8192 rows in one launch (blocks of 2048 rows; two matrix
  products into zero accumulators), cuts the embedded rows back in two, transposes the corpus half, and in a second
  launch (blocks of 512 query rows against the whole transposed corpus) adds the five positive parts one after the
  other onto a zero and stores zero minus the total.  The reference embeds the two arrays separately, lays both
  embeddings out along a `[4096, 4096, 5]` array, subtracts, takes the positive part, sums the last axis from zero
  and negates.

  Over the extended reals both are the function `G` of Proof/Spec.lean: a matrix product into a zero accumulator
  and the host's dot product are the same sum; stacking then cutting returns the rows; the transposed corpus read
  at `(k, j)` is the corpus embedding at `(j, k)`; and the two orders of adding the five terms agree because
  addition of extended reals is associative with unit zero and `0 − a = −a` at every `a`.  No finiteness of the
  inputs is used.  Nothing was rewritten between the kernel and its reading over the extended reals, so that claim is
  trivially true.
-/
import proofs.«137226_j17910013624325_2_alg».proof.Defs
import proofs.«137226_j17910013624325_2_alg».proof.Proof.Gen.Kernel
import proofs.«137226_j17910013624325_2_alg».proof.Proof.Gen.Kernel.Skeleton
import proofs.«137226_j17910013624325_2_alg».proof.Proof.Gen.Kernel.Launch
import proofs.«137226_j17910013624325_2_alg».proof.Proof.Gen.Kernel.Points
import proofs.«137226_j17910013624325_2_alg».proof.Proof.Gen.Kernel.Frame
import proofs.«137226_j17910013624325_2_alg».proof.Proof.Gen.KernelIdeal
import proofs.«137226_j17910013624325_2_alg».proof.Proof.Gen.KernelIdeal.Skeleton
import proofs.«137226_j17910013624325_2_alg».proof.Proof.Gen.KernelIdeal.Launch
import proofs.«137226_j17910013624325_2_alg».proof.Proof.Gen.KernelIdeal.Points
import proofs.«137226_j17910013624325_2_alg».proof.Proof.Gen.KernelIdeal.Frame
import proofs.«137226_j17910013624325_2_alg».proof.Proof.Gen.ReferenceIdeal
import proofs.«137226_j17910013624325_2_alg».proof.Proof.Gen.Pre_finite_inputs
import proofs.«137226_j17910013624325_2_alg».proof.Proof.Gen.ReferenceIdeal.Run
import proofs.«137226_j17910013624325_2_alg».proof.Proof.Gen.ReferenceIdeal.Read
import proofs.«137226_j17910013624325_2_alg».proof.Proof.KernelRun
import proofs.«137226_j17910013624325_2_alg».proof.Proof.KernelValue
import proofs.«137226_j17910013624325_2_alg».proof.Proof.RefValue
import Idealize.ShloMosaic.Adequacy
import Idealize.ShloMosaic.Init

noncomputable section

namespace Cert.Proof

open Idealize.ShloMosaic Idealize.ShloMosaic.TcCoe Idealize.SL.Sem

/-- The kernel program terminates without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the six arguments both programs end with the result array at `G` of the arguments. -/
theorem algebraic : Cert.algebraic_KernelIdeal_ReferenceIdeal := by
  intro m ρ m' ρ' _ hagree
  refine ⟨fun c => Cert.SetScore.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_value m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
